-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 51
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S1x128, .f32⟩
  | .hbm, ⟨30, _⟩ => ⟨S100000x128, .f32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S1x128, .f32⟩
  | .hbm, ⟨50, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S1x1600000, .i32⟩
  | .hbm, ⟨44, _⟩ => ⟨S1600000, .i32⟩
  | .hbm, ⟨45, _⟩ => ⟨S1x1600000, .i32⟩
  | .hbm, ⟨46, _⟩ => ⟨S1600000, .i32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_1 : Ref sig .tc := ⟨.hbm, 47, rfl⟩
abbrev main_v29 : Ref sig .tc := ⟨.hbm, 48, rfl⟩
abbrev main_v30 : Ref sig .tc := ⟨.hbm, 49, rfl⟩
abbrev main_c_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call2_cst : Ref sig .tc := ⟨.hbm, 65, rfl⟩
abbrev main_call2_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call3_cst : Ref sig .tc := ⟨.hbm, 72, rfl⟩
abbrev main_call3_v0 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDense.lean ====
/-
  One graph-convolution layer after the neighbour sums have been taken: a dense layer with a rectifier,
  `relu (x · W + b)`, as one function of its three arrays, entry by entry over the extended reals.
  Entry `(r, q)` is `max (∑ k, x (r, k) · W (k, q) + b (0, q)) 0`; the bias is kept as a one-row matrix, the
  form in which a row block of `x` meets it. The same formula describes a block of rows and the whole array:
  row `r` of the result depends on row `r` of `x` only.
-/
import Idealize.ShloMosaic.PureOps.Ideal
import Idealize.ShloMosaic.Lib.ValueIdx

noncomputable section

open scoped BigOperators

namespace Cert.Dense

open Idealize.ShloMosaic Idealize.ShloMosaic.ValueIdx

/-- `relu (x · W + b)`, entry by entry: the inner product of row `r` of `x` with column `q` of `W`, plus the
    bias at `q`, cut off below at zero. -/
def dense {M K N : ℕ} (x : FVec Ideal ⟨2, ![M, K]⟩ .f32) (W : FVec Ideal ⟨2, ![K, N]⟩ .f32)
    (b : FVec Ideal ⟨2, ![1, N]⟩ .f32) : FVec Ideal ⟨2, ![M, N]⟩ .f32 :=
  fun i => max ((∑ k : Fin K, x (ix2 (i 0) k) * W (ix2 k (i 1))) + b (ix2 (0 : Fin 1) (i 1)))
    (Ideal.ofBits .f32 0x00000000#32)

/-- The layer at an entry given by its two coordinates. -/
theorem dense_apply {M K N : ℕ} (x : FVec Ideal ⟨2, ![M, K]⟩ .f32) (W : FVec Ideal ⟨2, ![K, N]⟩ .f32)
    (b : FVec Ideal ⟨2, ![1, N]⟩ .f32) (r : Fin M) (q : Fin N) :
    dense x W b (ix2 r q) = max ((∑ k : Fin K, x (ix2 r k) * W (ix2 k q)) + b (ix2 (0 : Fin 1) q))
      (Ideal.ofBits .f32 0x00000000#32) := rfl

/-- Row `r` of the layer's result is determined by row `r` of `x`: if two inputs agree along the rows `r` and
    `r'`, the results agree at `(r, q)` and `(r', q)`. This is what lets a block of rows be computed alone. -/
theorem dense_row {M M' K N : ℕ} (x : FVec Ideal ⟨2, ![M, K]⟩ .f32) (x' : FVec Ideal ⟨2, ![M', K]⟩ .f32)
    (W : FVec Ideal ⟨2, ![K, N]⟩ .f32) (b : FVec Ideal ⟨2, ![1, N]⟩ .f32) (r : Fin M) (r' : Fin M') (q : Fin N)
    (h : ∀ k : Fin K, x (ix2 r k) = x' (ix2 r' k)) : dense x W b (ix2 r q) = dense x' W b (ix2 r' q) := by
  rw [dense_apply, dense_apply]
  exact congrArg (fun s => max (s + b (ix2 (0 : Fin 1) q)) (Ideal.ofBits .f32 0x00000000#32))
    (Finset.sum_congr rfl fun k _ => by rw [h k])

end Cert.Dense

end
-- ==== Proof.Layer.lean ====
/-
  One message-passing layer once the neighbour sums are known. With `x` the node features and `a` the sum of
  each node's in-neighbours' features, the layer is two dense layers with rectifiers applied to `x + a`:
  `relu (relu ((x + a) · Wa + ba) · Wb + bb)`. It acts row by row: row `r` of the result is a function of row
  `r` of `x` and row `r` of `a` alone, so a block of nodes may be computed by itself.
-/
import proofs.«144181_j84482006712591_1_alg».proof.Proof.LibDense

noncomputable section

namespace Cert.Gin

open Idealize.ShloMosaic Idealize.ShloMosaic.ValueIdx Cert.Dense

/-- The two dense layers on `x + a`, for any number `M` of nodes and any feature width `D`. -/
def mlp {M D : ℕ} (x a : FVec Ideal ⟨2, ![M, D]⟩ .f32) (Wa : FVec Ideal ⟨2, ![D, D]⟩ .f32)
    (ba : FVec Ideal ⟨2, ![1, D]⟩ .f32) (Wb : FVec Ideal ⟨2, ![D, D]⟩ .f32) (bb : FVec Ideal ⟨2, ![1, D]⟩ .f32) :
    FVec Ideal ⟨2, ![M, D]⟩ .f32 :=
  dense (dense (addf x a) Wa ba) Wb bb

/-- Row locality: if `x, a` along row `r` are `x', a'` along row `r'`, the layer's results along those rows agree. -/
theorem mlp_row {M M' D : ℕ} (x a : FVec Ideal ⟨2, ![M, D]⟩ .f32) (x' a' : FVec Ideal ⟨2, ![M', D]⟩ .f32)
    (Wa : FVec Ideal ⟨2, ![D, D]⟩ .f32) (ba : FVec Ideal ⟨2, ![1, D]⟩ .f32) (Wb : FVec Ideal ⟨2, ![D, D]⟩ .f32)
    (bb : FVec Ideal ⟨2, ![1, D]⟩ .f32) (r : Fin M) (r' : Fin M') (q : Fin D)
    (hx : ∀ k : Fin D, x (ix2 r k) = x' (ix2 r' k)) (ha : ∀ k : Fin D, a (ix2 r k) = a' (ix2 r' k)) :
    mlp x a Wa ba Wb bb (ix2 r q) = mlp x' a' Wa ba Wb bb (ix2 r' q) := by
  unfold mlp
  refine dense_row _ _ Wb bb r r' q fun k => ?_
  refine dense_row _ _ Wa ba r r' k fun j => ?_
  show x (ix2 r j) + a (ix2 r j) = x' (ix2 r' j) + a' (ix2 r' j)
  rw [hx j, ha j]

end Cert.Gin

end
-- ==== Proof.Block.lean ====
/-
  What the kernel body computes on one block of 5000 nodes. Over the extended reals the two roundings to
  bf16 are the identity and a block product into a zero accumulator is the plain sum over the contracted
  axis, so the stored value is the layer `Cert.Gin.mlp` of the block of features, the block of neighbour sums,
  the two weight matrices and the two one-row biases.
-/
import proofs.«144181_j84482006712591_1_alg».proof.Proof.Gen.KernelIdeal.Skeleton
import proofs.«144181_j84482006712591_1_alg».proof.Proof.Layer
import Idealize.ShloMosaic.Lib.Pipeline.Value
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Dense Cert.Gin

/-- The left operand's row coordinate is the output's row. -/
theorem lhs_row (i : S5000x128.Idx) (p : (dot_S5000x128_S128x128_S5000x128_1_0_0_1_n_n).contr.Idx) :
    ((dot_S5000x128_S128x128_S5000x128_1_0_0_1_n_n).lhsIdx i p 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl

/-- The left operand's column coordinate is the contracted coordinate. -/
theorem lhs_col (i : S5000x128.Idx) (p : (dot_S5000x128_S128x128_S5000x128_1_0_0_1_n_n).contr.Idx) :
    ((dot_S5000x128_S128x128_S5000x128_1_0_0_1_n_n).lhsIdx i p 1).val = (p ⟨0, by decide⟩).val :=
  (dot_S5000x128_S128x128_S5000x128_1_0_0_1_n_n).lhsIdx_val_of_single rfl i p

/-- The right operand's row coordinate is the contracted coordinate. -/
theorem rhs_row (i : S5000x128.Idx) (p : (dot_S5000x128_S128x128_S5000x128_1_0_0_1_n_n).contr.Idx) :
    ((dot_S5000x128_S128x128_S5000x128_1_0_0_1_n_n).rhsIdx i p 0).val = (p ⟨0, by decide⟩).val :=
  (dot_S5000x128_S128x128_S5000x128_1_0_0_1_n_n).rhsIdx_val_of_single rfl i p

/-- The right operand's column coordinate is the output's column. -/
theorem rhs_col (i : S5000x128.Idx) (p : (dot_S5000x128_S128x128_S5000x128_1_0_0_1_n_n).contr.Idx) :
    ((dot_S5000x128_S128x128_S5000x128_1_0_0_1_n_n).rhsIdx i p 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- The left operand of the block product at `(r, q)` and contraction coordinate `k` is read at `(r, k)`. -/
theorem lhs_at (r : Fin 5000) (q : Fin 128) (k : Fin 128) :
    (dot_S5000x128_S128x128_S5000x128_1_0_0_1_n_n).lhsIdx (ix2 r q)
      ((contrEquiv1 dot_S5000x128_S128x128_S5000x128_1_0_0_1_n_n 128 rfl rfl).symm k) = ix2 r k := by
  have hk := contrEquiv1_symm_val dot_S5000x128_S128x128_S5000x128_1_0_0_1_n_n 128 rfl rfl k
  funext a
  apply Fin.ext
  match a with
  | ⟨0, _⟩ => exact lhs_row _ _
  | ⟨1, _⟩ => exact (lhs_col _ _).trans hk

/-- The right operand is read at `(k, q)`. -/
theorem rhs_at (r : Fin 5000) (q : Fin 128) (k : Fin 128) :
    (dot_S5000x128_S128x128_S5000x128_1_0_0_1_n_n).rhsIdx (ix2 r q)
      ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  funext a
  apply Fin.ext
  match a with
  | ⟨0, _⟩ => exact (rhs_row _ _).trans hk
  | ⟨1, _⟩ => exact rhs_col _ _

/-- A block product into the zero accumulator, at an entry: the sum over the 128 contracted coordinates. -/
theorem blockProduct {φ₁ φ₂ : FTy} (x : FVec Ideal S5000x128 φ₁) (W : FVec Ideal S128x128 φ₂) (r : Fin 5000) (q : Fin 128) :
    matmul dot_S5000x128_S128x128_S5000x128_1_0_0_1_n_n none x W (constant S5000x128 .f32 0x00000000#32) (ix2 r q)
      = ∑ k : Fin 128, x (ix2 r k) * W (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  rw [lhs_at, rhs_at]

/-- One dense stage of the body on a block: the rounded operands' product, the bias row broadcast down the
    block, the maximum with zero — the dense layer of the block. -/
theorem denseBlock (y : FVec Ideal S5000x128 .f32) (W : FVec Ideal S128x128 .f32) (b : FVec Ideal S1x128 .f32) :
    maximumf (addf (matmul dot_S5000x128_S128x128_S5000x128_1_0_0_1_n_n none (truncf .bf16 y Facts₀.bitsLt_bf16_f32)
        (truncf .bf16 W Facts₀.bitsLt_bf16_f32) (constant S5000x128 .f32 0x00000000#32))
      (broadcastTo S5000x128 b Facts₀.broadcasts_S1x128_S5000x128))
      (broadcast S5000x128 (Scalar.ofBits .f32 0x00000000#32)) = dense y W b := by
  funext j
  obtain ⟨r, q, rfl⟩ : ∃ (r : Fin 5000) (q : Fin 128), j = ix2 r q := ⟨j 0, j 1, eq_ix2 j⟩
  rw [dense_apply]
  show max (matmul dot_S5000x128_S128x128_S5000x128_1_0_0_1_n_n none (truncf .bf16 y Facts₀.bitsLt_bf16_f32)
        (truncf .bf16 W Facts₀.bitsLt_bf16_f32) (constant S5000x128 .f32 0x00000000#32) (ix2 r q)
      + broadcastTo S5000x128 b Facts₀.broadcasts_S1x128_S5000x128 (ix2 r q)) (Ideal.ofBits .f32 0x00000000#32) = _
  rw [blockProduct, broadcastTo_1b_ab_apply]
  rfl

/-- The first kernel's stored value is the layer of its six loaded blocks. -/
theorem pay0_eq (x0 x1 : Vec Ideal S5000x128 .f32) (x2 : Vec Ideal S128x128 .f32) (x3 : Vec Ideal S1x128 .f32)
    (x4 : Vec Ideal S128x128 .f32) (x5 : Vec Ideal S1x128 .f32) :
    k0_pay1 x0 x1 x2 x3 x4 x5 = mlp x0 x1 x2 x3 x4 x5 := by
  unfold k0_pay1 mlp
  simp only [shapeCast_self]
  rw [denseBlock (addf x0 x1) x2 x3, denseBlock (dense (addf x0 x1) x2 x3) x4 x5]

/-- The second kernel's stored value is the same layer of its six loaded blocks. -/
theorem pay1_eq (x0 x1 : Vec Ideal S5000x128 .f32) (x2 : Vec Ideal S128x128 .f32) (x3 : Vec Ideal S1x128 .f32)
    (x4 : Vec Ideal S128x128 .f32) (x5 : Vec Ideal S1x128 .f32) :
    k1_pay1 x0 x1 x2 x3 x4 x5 = mlp x0 x1 x2 x3 x4 x5 := by
  unfold k1_pay1 mlp
  simp only [shapeCast_self]
  rw [denseBlock (addf x0 x1) x2 x3, denseBlock (dense (addf x0 x1) x2 x3) x4 x5]

end Cert.KernelIdeal.Block

end
-- ==== Proof.Region0.lean ====
/-
  Region 0 of the kernel, read as a value: whatever the seven arrays hold when the region is entered, the
  output array ends holding the layer `Cert.Gin.mlp` of the two row-blocked inputs and the four resident ones.
  Grid point `t` works on rows `5000 t … 5000 t + 4999`: its two row-blocked input blocks are those rows of their
  arrays, the weight and bias blocks are their whole arrays, and what it writes back is those rows of the
  layer's result, because the layer acts row by row. The twenty blocks tile the 100000 rows.
-/
import proofs.«144181_j84482006712591_1_alg».proof.Proof.Gen.KernelIdeal.Frame
import proofs.«144181_j84482006712591_1_alg».proof.Proof.Block
import Idealize.ShloMosaic.Lib.Pipeline.Value

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx Cert.Gin

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row-blocked windows are at block `(t, 0)`, the
    resident ones at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `r` of block `t` is row `5000 t + r` of the array. -/
def rowAt (t : Fin cfg0.N) (r : Fin 5000) : Fin 100000 :=
  ⟨t.val * 5000 + r.val, by have hN : cfg0.N = 20 := N_0; have ht := t.isLt; have hr := r.isLt; omega⟩

/-- The layer of the arrays as the region finds them. -/
abbrev whole (c : Dev nD) : S100000x128.Idx → EReal :=
  mlp (M := 100000) (D := 128) (V c main_arg0 : S100000x128.Idx → EReal) (V c main_v13 : S100000x128.Idx → EReal)
    (V c main_arg3 : S128x128.Idx → EReal) (V c main_v14 : S1x128.Idx → EReal)
    (V c main_arg5 : S128x128.Idx → EReal) (V c main_v15 : S1x128.Idx → EReal)

/-- The first input's block at point `t`, along row `r`, is the array along row `5000 t + r`. -/
theorem rows_x (c : Dev nD) (t : Fin cfg0.N) (r : Fin 5000) (k : Fin 128) :
    (iblk0 V c 0 t : S5000x128.Idx → EReal) (ix2 r k) = (V c main_arg0 : S100000x128.Idx → EReal) (ix2 (rowAt t r) k) := by
  obtain ⟨e0, e1, -⟩ := idx_facts t
  unfold iblk0
  rw [View.read_apply]
  show (V c main_arg0 : S100000x128.Idx → EReal) _ = _
  refine congrArg (V c main_arg0 : S100000x128.Idx → EReal) (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 128 + 1 * k.val = k.val; rw [e1]; omega

/-- The same for the second input (the neighbour sums). -/
theorem rows_a (c : Dev nD) (t : Fin cfg0.N) (r : Fin 5000) (k : Fin 128) :
    (iblk0 V c 1 t : S5000x128.Idx → EReal) (ix2 r k) = (V c main_v13 : S100000x128.Idx → EReal) (ix2 (rowAt t r) k) := by
  obtain ⟨-, -, e0, e1, -⟩ := idx_facts t
  unfold iblk0
  rw [View.read_apply]
  show (V c main_v13 : S100000x128.Idx → EReal) _ = _
  refine congrArg (V c main_v13 : S100000x128.Idx → EReal) (funext fun a => Fin.ext ?_)
  match a with
  | ⟨0, _⟩ => show win0_1.index t (0 : Fin 2) * 5000 + 1 * r.val = t.val * 5000 + r.val; rw [e0]; omega
  | ⟨1, _⟩ => show win0_1.index t (1 : Fin 2) * 128 + 1 * k.val = k.val; rw [e1]; omega

/-- The first weight matrix's block is the whole matrix, at every point. -/
theorem whole_Wa (c : Dev nD) (t : Fin cfg0.N) :
    (iblk0 V c 2 t : S128x128.Idx → EReal) = (V c main_arg3 : S128x128.Idx → EReal) := by
  obtain ⟨-, -, -, -, e0, e1, -⟩ := idx_facts t
  funext y
  unfold iblk0
  rw [View.read_apply]
  show (V c main_arg3 : S128x128.Idx → EReal) _ = _
  refine congrArg (V c main_arg3 : S128x128.Idx → EReal) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The first bias row's block is the whole row. -/
theorem whole_ba (c : Dev nD) (t : Fin cfg0.N) :
    (iblk0 V c 3 t : S1x128.Idx → EReal) = (V c main_v14 : S1x128.Idx → EReal) := by
  obtain ⟨-, -, -, -, -, -, e0, e1, -⟩ := idx_facts t
  funext y
  unfold iblk0
  rw [View.read_apply]
  show (V c main_v14 : S1x128.Idx → EReal) _ = _
  refine congrArg (V c main_v14 : S1x128.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The second weight matrix's block is the whole matrix. -/
theorem whole_Wb (c : Dev nD) (t : Fin cfg0.N) :
    (iblk0 V c 4 t : S128x128.Idx → EReal) = (V c main_arg5 : S128x128.Idx → EReal) := by
  obtain ⟨-, -, -, -, -, -, -, -, e0, e1, -⟩ := idx_facts t
  funext y
  unfold iblk0
  rw [View.read_apply]
  show (V c main_arg5 : S128x128.Idx → EReal) _ = _
  refine congrArg (V c main_arg5 : S128x128.Idx → EReal) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The second bias row's block is the whole row. -/
theorem whole_bb (c : Dev nD) (t : Fin cfg0.N) :
    (iblk0 V c 5 t : S1x128.Idx → EReal) = (V c main_v15 : S1x128.Idx → EReal) := by
  obtain ⟨-, -, -, -, -, -, -, -, -, -, e0, e1, -⟩ := idx_facts t
  funext y
  unfold iblk0
  rw [View.read_apply]
  show (V c main_v15 : S1x128.Idx → EReal) _ = _
  refine congrArg (V c main_v15 : S1x128.Idx → EReal) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Entry `(r, q)` of the output's block at point `t` is entry `(5000 t + r, q)` of the output array. -/
theorem emb_out (t : Fin cfg0.N) (r : Fin 5000) (q : Fin 128) :
    (((cfg0.win 6).blk t).view.emb (ix2 r q) : S100000x128.Idx) = ix2 (rowAt t r) q := by
  obtain ⟨-, -, -, -, -, -, -, -, -, -, -, -, e0, e1⟩ := idx_facts t
  funext a
  apply Fin.ext
  match a with
  | ⟨0, _⟩ => show win0_6.index t (0 : Fin 2) * 5000 + 1 * r.val = t.val * 5000 + r.val; rw [e0]; omega
  | ⟨1, _⟩ => show win0_6.index t (1 : Fin 2) * 128 + 1 * q.val = q.val; rw [e1]; omega

/-- What point `t` writes back is its block of rows of the layer's result. -/
theorem flushed_eq (c : Dev nD) (t : Fin cfg0.N) :
    (dat0 (F := Ideal) V c).flushed 6 t = ((cfg0.win 6).blk t).view.read (Elt Ideal) (whole V c) := by
  show (cfg0.win 6).cut (grid0.coords t) ((dat0 (F := Ideal) V c).after 6 t) = _
  rw [after0_6]
  unfold out0_6
  rw [View.canon_unit_zero hz]
  simp only [View.ld_unit_zero (S := S5000x128) hz, View.ld_unit_zero (S := S128x128) hz, View.ld_unit_zero (S := S1x128) hz]
  rw [Block.pay0_eq, whole_Wa V c t, whole_ba V c t, whole_Wb V c t, whole_bb V c t]
  funext j
  obtain ⟨r, q, rfl⟩ : ∃ (r : Fin 5000) (q : Fin 128), j = ix2 r q := ⟨j 0, j 1, eq_ix2 j⟩
  show mlp (M := 5000) (D := 128) (iblk0 V c 0 t : S5000x128.Idx → EReal) (iblk0 V c 1 t : S5000x128.Idx → EReal)
      (V c main_arg3 : S128x128.Idx → EReal) (V c main_v14 : S1x128.Idx → EReal)
      (V c main_arg5 : S128x128.Idx → EReal) (V c main_v15 : S1x128.Idx → EReal) (ix2 r q)
    = whole V c (((cfg0.win 6).blk t).view.emb (ix2 r q) : S100000x128.Idx)
  rw [emb_out t r q]
  exact mlp_row _ _ _ _ _ _ _ _ r (rowAt t r) q (rows_x V c t r) (rows_a V c t r)

/-- An index of the output array is in point `t`'s block iff each coordinate is in the block's range. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v16).slice (win0_6.rect t)).set ↔ _
  rw [View.set_slice_whole, Rect.mem_set_unit]
  exact Iff.rfl

/-- Every row of the output is in some point's block: row `i` in block `i / 5000`. -/
theorem cover (i : S100000x128.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- The output array after the region: the layer of the arrays as the region found them. -/
theorem final (c : Dev nD) : (dat0 (F := Ideal) V c).arrAt 6 cfg0.N = whole V c :=
  (dat0 (F := Ideal) V c).arrAt_eq_of_cover 6 (whole V c) (fun t _ => flushed_eq V c t) (cover)

end Cert.KernelIdeal.Region0

end
-- ==== Proof.Region1.lean ====
/-
  Region 1 of the kernel, read as a value: whatever the seven arrays hold when the region is entered, the
  output array ends holding the layer `Cert.Gin.mlp` of the two row-blocked inputs and the four resident ones.
  Grid point `t` works on rows `5000 t … 5000 t + 4999`: its two row-blocked input blocks are those rows of their
  arrays, the weight and bias blocks are their whole arrays, and what it writes back is those rows of the
  layer's result, because the layer acts row by row. The twenty blocks tile the 100000 rows.
-/
import proofs.«144181_j84482006712591_1_alg».proof.Proof.Gen.KernelIdeal.Frame
import proofs.«144181_j84482006712591_1_alg».proof.Proof.Block
import Idealize.ShloMosaic.Lib.Pipeline.Value

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx Cert.Gin

variable (V : (c : Dev nD) → (b : Ref sig .tc) → Buf (Elt Ideal) ((c : Thread nD τ).loc b))

theorem hz : (![0, 0] : Fin 2 → Nat) = fun _ => 0 := funext fun a => by fin_cases a <;> rfl

/-- The block index of every window at every grid point: the row-blocked windows are at block `(t, 0)`, the
    resident ones at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `r` of block `t` is row `5000 t + r` of the array. -/
def rowAt (t : Fin cfg1.N) (r : Fin 5000) : Fin 100000 :=
  ⟨t.val * 5000 + r.val, by have hN : cfg1.N = 20 := N_1; have ht := t.isLt; have hr := r.isLt; omega⟩

/-- The layer of the arrays as the region finds them. -/
abbrev whole (c : Dev nD) : S100000x128.Idx → EReal :=
  mlp (M := 100000) (D := 128) (V c main_v16 : S100000x128.Idx → EReal) (V c main_v30 : S100000x128.Idx → EReal)
    (V c main_arg7 : S128x128.Idx → EReal) (V c main_v31 : S1x128.Idx → EReal)
    (V c main_arg9 : S128x128.Idx → EReal) (V c main_v32 : S1x128.Idx → EReal)

/-- The first input's block at point `t`, along row `r`, is the array along row `5000 t + r`. -/
theorem rows_x (c : Dev nD) (t : Fin cfg1.N) (r : Fin 5000) (k : Fin 128) :
    (iblk1 V c 0 t : S5000x128.Idx → EReal) (ix2 r k) = (V c main_v16 : S100000x128.Idx → EReal) (ix2 (rowAt t r) k) := by
  obtain ⟨e0, e1, -⟩ := idx_facts t
  unfold iblk1
  rw [View.read_apply]
  show (V c main_v16 : S100000x128.Idx → EReal) _ = _
  refine congrArg (V c main_v16 : S100000x128.Idx → EReal) (funext fun a => Fin.ext ?_)
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

/-- The same for the second input (the neighbour sums). -/
theorem rows_a (c : Dev nD) (t : Fin cfg1.N) (r : Fin 5000) (k : Fin 128) :
    (iblk1 V c 1 t : S5000x128.Idx → EReal) (ix2 r k) = (V c main_v30 : S100000x128.Idx → EReal) (ix2 (rowAt t r) k) := by
  obtain ⟨-, -, e0, e1, -⟩ := idx_facts t
  unfold iblk1
  rw [View.read_apply]
  show (V c main_v30 : S100000x128.Idx → EReal) _ = _
  refine congrArg (V c main_v30 : S100000x128.Idx → EReal) (funext fun a => Fin.ext ?_)
  match a with
  | ⟨0, _⟩ => show win1_1.index t (0 : Fin 2) * 5000 + 1 * r.val = t.val * 5000 + r.val; rw [e0]; omega
  | ⟨1, _⟩ => show win1_1.index t (1 : Fin 2) * 128 + 1 * k.val = k.val; rw [e1]; omega

/-- The first weight matrix's block is the whole matrix, at every point. -/
theorem whole_Wa (c : Dev nD) (t : Fin cfg1.N) :
    (iblk1 V c 2 t : S128x128.Idx → EReal) = (V c main_arg7 : S128x128.Idx → EReal) := by
  obtain ⟨-, -, -, -, e0, e1, -⟩ := idx_facts t
  funext y
  unfold iblk1
  rw [View.read_apply]
  show (V c main_arg7 : S128x128.Idx → EReal) _ = _
  refine congrArg (V c main_arg7 : S128x128.Idx → EReal) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The first bias row's block is the whole row. -/
theorem whole_ba (c : Dev nD) (t : Fin cfg1.N) :
    (iblk1 V c 3 t : S1x128.Idx → EReal) = (V c main_v31 : S1x128.Idx → EReal) := by
  obtain ⟨-, -, -, -, -, -, e0, e1, -⟩ := idx_facts t
  funext y
  unfold iblk1
  rw [View.read_apply]
  show (V c main_v31 : S1x128.Idx → EReal) _ = _
  refine congrArg (V c main_v31 : S1x128.Idx → EReal) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The second weight matrix's block is the whole matrix. -/
theorem whole_Wb (c : Dev nD) (t : Fin cfg1.N) :
    (iblk1 V c 4 t : S128x128.Idx → EReal) = (V c main_arg9 : S128x128.Idx → EReal) := by
  obtain ⟨-, -, -, -, -, -, -, -, e0, e1, -⟩ := idx_facts t
  funext y
  unfold iblk1
  rw [View.read_apply]
  show (V c main_arg9 : S128x128.Idx → EReal) _ = _
  refine congrArg (V c main_arg9 : S128x128.Idx → EReal) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- The second bias row's block is the whole row. -/
theorem whole_bb (c : Dev nD) (t : Fin cfg1.N) :
    (iblk1 V c 5 t : S1x128.Idx → EReal) = (V c main_v32 : S1x128.Idx → EReal) := by
  obtain ⟨-, -, -, -, -, -, -, -, -, -, e0, e1, -⟩ := idx_facts t
  funext y
  unfold iblk1
  rw [View.read_apply]
  show (V c main_v32 : S1x128.Idx → EReal) _ = _
  refine congrArg (V c main_v32 : S1x128.Idx → EReal) (funext fun a => Fin.ext ?_)
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- Entry `(r, q)` of the output's block at point `t` is entry `(5000 t + r, q)` of the output array. -/
theorem emb_out (t : Fin cfg1.N) (r : Fin 5000) (q : Fin 128) :
    (((cfg1.win 6).blk t).view.emb (ix2 r q) : S100000x128.Idx) = ix2 (rowAt t r) q := by
  obtain ⟨-, -, -, -, -, -, -, -, -, -, -, -, e0, e1⟩ := idx_facts t
  funext a
  apply Fin.ext
  match a with
  | ⟨0, _⟩ => show win1_6.index t (0 : Fin 2) * 5000 + 1 * r.val = t.val * 5000 + r.val; rw [e0]; omega
  | ⟨1, _⟩ => show win1_6.index t (1 : Fin 2) * 128 + 1 * q.val = q.val; rw [e1]; omega

/-- What point `t` writes back is its block of rows of the layer's result. -/
theorem flushed_eq (c : Dev nD) (t : Fin cfg1.N) :
    (dat1 (F := Ideal) V c).flushed 6 t = ((cfg1.win 6).blk t).view.read (Elt Ideal) (whole V c) := by
  show (cfg1.win 6).cut (grid1.coords t) ((dat1 (F := Ideal) V c).after 6 t) = _
  rw [after1_6]
  unfold out1_6
  rw [View.canon_unit_zero hz]
  simp only [View.ld_unit_zero (S := S5000x128) hz, View.ld_unit_zero (S := S128x128) hz, View.ld_unit_zero (S := S1x128) hz]
  rw [Block.pay1_eq, whole_Wa V c t, whole_ba V c t, whole_Wb V c t, whole_bb V c t]
  funext j
  obtain ⟨r, q, rfl⟩ : ∃ (r : Fin 5000) (q : Fin 128), j = ix2 r q := ⟨j 0, j 1, eq_ix2 j⟩
  show mlp (M := 5000) (D := 128) (iblk1 V c 0 t : S5000x128.Idx → EReal) (iblk1 V c 1 t : S5000x128.Idx → EReal)
      (V c main_arg7 : S128x128.Idx → EReal) (V c main_v31 : S1x128.Idx → EReal)
      (V c main_arg9 : S128x128.Idx → EReal) (V c main_v32 : S1x128.Idx → EReal) (ix2 r q)
    = whole V c (((cfg1.win 6).blk t).view.emb (ix2 r q) : S100000x128.Idx)
  rw [emb_out t r q]
  exact mlp_row _ _ _ _ _ _ _ _ r (rowAt t r) q (rows_x V c t r) (rows_a V c t r)

/-- An index of the output array is in point `t`'s block iff each coordinate is in the block's range. -/
theorem mem_blk (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v33).slice (win1_6.rect t)).set ↔ _
  rw [View.set_slice_whole, Rect.mem_set_unit]
  exact Iff.rfl

/-- Every row of the output is in some point's block: row `i` in block `i / 5000`. -/
theorem cover (i : S100000x128.Idx) :
    ∃ t : Fin cfg1.N, (cfg1.win 6).flush t = true ∧ i ∈ ((cfg1.win 6).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-- The output array after the region: the layer of the arrays as the region found them. -/
theorem final (c : Dev nD) : (dat1 (F := Ideal) V c).arrAt 6 cfg1.N = whole V c :=
  (dat1 (F := Ideal) V c).arrAt_eq_of_cover 6 (whole V c) (fun t _ => flushed_eq V c t) (cover)

end Cert.KernelIdeal.Region1

end
-- ==== Proof.Spec.lean ====
/-
  The function both programs compute: two message-passing layers over one graph.

  A layer takes the node features `x` (one row of 128 numbers per node), forms for every node the sum of the
  rows of its in-neighbours (`nbrSum`: for each edge, the source's row is added into the destination's), and
  applies two dense layers with rectifiers to `x + nbrSum x` (`Cert.Gin.mlp`). The network is the layer applied
  twice, the second time to the first layer's result, over the same edges with its own weights.

  The neighbour sums are taken by both programs with the same host operations on the same edge list (a
  gather of rows at the sources, a scatter-add at the destinations), so they are kept here as one named
  function of the features and the edge list and never opened.
-/
import proofs.«144181_j84482006712591_1_alg».proof.Proof.Layer
import proofs.«144181_j84482006712591_1_alg».proof.Proof.Gen.ReferenceIdeal.Read

noncomputable section

namespace Cert.Gin

open Idealize.ShloMosaic Idealize.ShloMosaic.ValueIdx Cert.ReferenceIdeal

/-- The sum, for every node, of the feature rows of the sources of the edges that end at it. -/
def nbrSum (x : (⟨S100000x128, .f32⟩ : BufTy).Contents (Elt Ideal)) (e : (⟨S2x1600000, .i32⟩ : BufTy).Contents (Elt Ideal)) :
    (⟨S100000x128, .f32⟩ : BufTy).Contents (Elt Ideal) :=
  Cert.ReferenceIdeal.Read.val_main_v13 (F := Ideal) x e

/-- A bias vector as a one-row matrix. -/
def rowOf (b : (⟨S128, .f32⟩ : BufTy).Contents (Elt Ideal)) : (⟨S1x128, .f32⟩ : BufTy).Contents (Elt Ideal) :=
  fun i => b (ix1 (i 1))

/-- One layer: the two dense layers on the features plus their neighbour sums. -/
def layer (x : (⟨S100000x128, .f32⟩ : BufTy).Contents (Elt Ideal)) (e : (⟨S2x1600000, .i32⟩ : BufTy).Contents (Elt Ideal))
    (Wa : (⟨S128x128, .f32⟩ : BufTy).Contents (Elt Ideal)) (ba : (⟨S128, .f32⟩ : BufTy).Contents (Elt Ideal))
    (Wb : (⟨S128x128, .f32⟩ : BufTy).Contents (Elt Ideal)) (bb : (⟨S128, .f32⟩ : BufTy).Contents (Elt Ideal)) :
    (⟨S100000x128, .f32⟩ : BufTy).Contents (Elt Ideal) :=
  mlp (M := 100000) (D := 128) x (nbrSum x e) Wa (rowOf ba) Wb (rowOf bb)

/-- The network: the layer twice. -/
def net (x : (⟨S100000x128, .f32⟩ : BufTy).Contents (Elt Ideal)) (e : (⟨S2x1600000, .i32⟩ : BufTy).Contents (Elt Ideal))
    (W1a : (⟨S128x128, .f32⟩ : BufTy).Contents (Elt Ideal)) (b1a : (⟨S128, .f32⟩ : BufTy).Contents (Elt Ideal))
    (W1b : (⟨S128x128, .f32⟩ : BufTy).Contents (Elt Ideal)) (b1b : (⟨S128, .f32⟩ : BufTy).Contents (Elt Ideal))
    (W2a : (⟨S128x128, .f32⟩ : BufTy).Contents (Elt Ideal)) (b2a : (⟨S128, .f32⟩ : BufTy).Contents (Elt Ideal))
    (W2b : (⟨S128x128, .f32⟩ : BufTy).Contents (Elt Ideal)) (b2b : (⟨S128, .f32⟩ : BufTy).Contents (Elt Ideal)) :
    (⟨S100000x128, .f32⟩ : BufTy).Contents (Elt Ideal) :=
  layer (layer x e W1a b1a W1b b1b) e W2a b2a W2b b2b

end Cert.Gin

end
-- ==== Proof.HostSide.lean ====
/-
  The host operations of the kernel's program, read as values. Before each region the program takes the
  neighbour sums of the current features (a gather of rows at the edges' sources, a scatter-add at their
  destinations: the specification's `Cert.Gin.nbrSum`, the very operations the reference uses) and casts the two
  bias vectors to one-row matrices; every other array it leaves alone. Stated for arbitrary buffer contents `U`
  at the start of the stretch.
-/
import proofs.«144181_j84482006712591_1_alg».proof.Proof.Gen.KernelIdeal.Launch
import proofs.«144181_j84482006712591_1_alg».proof.Proof.Spec
import Idealize.ShloMosaic.Lib.StableHlo.Run
import Idealize.ShloMosaic.Lib.ValueLayout

noncomputable section

namespace Cert.KernelIdeal.HostSide

open Cert.KernelIdeal Cert.KernelIdeal.Gen Idealize.ShloMosaic Idealize.ShloMosaic.TcCoe Idealize.ShloMosaic.StableHlo
open Idealize.ShloMosaic.ValueIdx Cert.Gin

/-- A vector cast to a one-row matrix is the specification's `rowOf`. -/
theorem cast_row (b : FVec Ideal S128 .f32) (h : S128.ShapeCasts S1x128) : shapeCast S1x128 b h = rowOf b := by
  funext i
  obtain ⟨u, q, rfl⟩ : ∃ (u : Fin 1) (q : Fin 128), i = ix2 u q := ⟨i 0, i 1, eq_ix2 i⟩
  exact shapeCast_a_1a_apply b h u q

variable (U : Valuation τ sig (Elt Ideal))

/-! ## The stretch before the first region -/

/-- The neighbour sums of the input features. -/
theorem sums0 : after (hostOps0 (F := Ideal)) U (Proc.devRef .tc main_v13)
    = nbrSum (U (Proc.devRef .tc main_arg0)) (U (Proc.devRef .tc main_arg1)) := by
  after_results <;> rfl

/-- The first layer's first bias as a one-row matrix. -/
theorem row0_a : after (hostOps0 (F := Ideal)) U (Proc.devRef .tc main_v14) = rowOf (U (Proc.devRef .tc main_arg4)) := by
  refine Eq.trans ?_ (cast_row (U (Proc.devRef .tc main_arg4)) Facts₀.shapeCasts_S128_S1x128)
  after_results <;> rfl

/-- The first layer's second bias as a one-row matrix. -/
theorem row0_b : after (hostOps0 (F := Ideal)) U (Proc.devRef .tc main_v15) = rowOf (U (Proc.devRef .tc main_arg6)) := by
  refine Eq.trans ?_ (cast_row (U (Proc.devRef .tc main_arg6)) Facts₀.shapeCasts_S128_S1x128)
  after_results <;> rfl

/-- The input features are left alone. -/
theorem keep0_x : after (hostOps0 (F := Ideal)) U (Proc.devRef .tc main_arg0) = U (Proc.devRef .tc main_arg0) := by
  after_results <;> rfl

/-- The edge list is left alone. -/
theorem keep0_e : after (hostOps0 (F := Ideal)) U (Proc.devRef .tc main_arg1) = U (Proc.devRef .tc main_arg1) := by
  after_results <;> rfl

/-- The first layer's first weight matrix is left alone. -/
theorem keep0_W1a : after (hostOps0 (F := Ideal)) U (Proc.devRef .tc main_arg3) = U (Proc.devRef .tc main_arg3) := by
  after_results <;> rfl

/-- The first layer's second weight matrix is left alone. -/
theorem keep0_W1b : after (hostOps0 (F := Ideal)) U (Proc.devRef .tc main_arg5) = U (Proc.devRef .tc main_arg5) := by
  after_results <;> rfl

/-- The second layer's first weight matrix is left alone. -/
theorem keep0_W2a : after (hostOps0 (F := Ideal)) U (Proc.devRef .tc main_arg7) = U (Proc.devRef .tc main_arg7) := by
  after_results <;> rfl

/-- The second layer's first bias is left alone. -/
theorem keep0_b2a : after (hostOps0 (F := Ideal)) U (Proc.devRef .tc main_arg8) = U (Proc.devRef .tc main_arg8) := by
  after_results <;> rfl

/-- The second layer's second weight matrix is left alone. -/
theorem keep0_W2b : after (hostOps0 (F := Ideal)) U (Proc.devRef .tc main_arg9) = U (Proc.devRef .tc main_arg9) := by
  after_results <;> rfl

/-- The second layer's second bias is left alone. -/
theorem keep0_b2b : after (hostOps0 (F := Ideal)) U (Proc.devRef .tc main_arg10) = U (Proc.devRef .tc main_arg10) := by
  after_results <;> rfl

/-! ## The stretch between the regions -/

/-- The neighbour sums of the first layer's result. -/
theorem sums1 : after (hostOps1 (F := Ideal)) U (Proc.devRef .tc main_v30)
    = nbrSum (U (Proc.devRef .tc main_v16)) (U (Proc.devRef .tc main_arg1)) := by
  after_results <;> rfl

/-- The second layer's first bias as a one-row matrix. -/
theorem row1_a : after (hostOps1 (F := Ideal)) U (Proc.devRef .tc main_v31) = rowOf (U (Proc.devRef .tc main_arg8)) := by
  refine Eq.trans ?_ (cast_row (U (Proc.devRef .tc main_arg8)) Facts₀.shapeCasts_S128_S1x128)
  after_results <;> rfl

/-- The second layer's second bias as a one-row matrix. -/
theorem row1_b : after (hostOps1 (F := Ideal)) U (Proc.devRef .tc main_v32) = rowOf (U (Proc.devRef .tc main_arg10)) := by
  refine Eq.trans ?_ (cast_row (U (Proc.devRef .tc main_arg10)) Facts₀.shapeCasts_S128_S1x128)
  after_results <;> rfl

/-- The first layer's result is left alone. -/
theorem keep1_h : after (hostOps1 (F := Ideal)) U (Proc.devRef .tc main_v16) = U (Proc.devRef .tc main_v16) := by
  after_results <;> rfl

/-- The second layer's first weight matrix is left alone. -/
theorem keep1_W2a : after (hostOps1 (F := Ideal)) U (Proc.devRef .tc main_arg7) = U (Proc.devRef .tc main_arg7) := by
  after_results <;> rfl

/-- The second layer's second weight matrix is left alone. -/
theorem keep1_W2b : after (hostOps1 (F := Ideal)) U (Proc.devRef .tc main_arg9) = U (Proc.devRef .tc main_arg9) := by
  after_results <;> rfl

end Cert.KernelIdeal.HostSide

end
-- ==== Proof.KernelRun.lean ====
/-
  The kernel's program as a whole, read as a value. Its run passes through four stretches: host operations, the
  first region, host operations, the second region. The buffer contents at the boundaries are known in closed
  form: the host stretches take neighbour sums and cast the biases, each region leaves the layer of the arrays it
  found (`Region0.final`, `Region1.final`). Composing them, the result array ends holding the network
  `Cert.Gin.net` of the argument arrays, and the arguments end as they were launched.
-/
import proofs.«144181_j84482006712591_1_alg».proof.Proof.Gen.KernelIdeal.Frame
import proofs.«144181_j84482006712591_1_alg».proof.Proof.Region0
import proofs.«144181_j84482006712591_1_alg».proof.Proof.Region1
import proofs.«144181_j84482006712591_1_alg».proof.Proof.HostSide

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Gin

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the program terminates without a fault, and in every final state each buffer
    that outlives a region holds the contents of the last boundary (after the second region's write-backs). The
    program is the run of its four segments; the thread state passes from "every such buffer at the launch
    contents" through the boundaries to "every such buffer at the last boundary's contents", and that last state,
    held beside a final memory, says the memory holds those contents. -/
theorem run_boundary : θ_run defs (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core needs anything else
      iintro H
      imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- each core: its buffers at the launch memory, its generator register, nothing owed
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howes, -, Hreg, -⟩, -⟩
      imodintro
      isplitl [Hbufs]
      · iexact Hbufs
      isplitl [Hreg]
      · iexists _; iexact Hreg
      · iexists ∅; iexact Howes)
    (QY := fun c s => ∀ b ∈ Pipeline.ucRefs τ sig, s.mem (((c : Thread nD τ)).1, b) = W4 m ρ c b)
    (hfin := fun c s' => by
      -- the buffers held at the last boundary's contents, beside a final memory, are read in it
      iintro ⟨⟨Hbufs, -⟩, Hst⟩
      unfold StableHlo.held
      imodintro
      iapply (pointsTo_read_all (Pipeline.ucRefs τ sig) (fun b => (((c : Thread nD τ)).1, b)) (W4 m ρ c) s')
      isplitl [Hbufs]
      · iexact Hbufs
      · iexact Hst)
    (hQ := fun _ h => h)

/-- After the first region its output array holds the first layer of the arguments. -/
theorem after_region0 (c : Dev nD) :
    W2 m ρ c (Proc.devRef .tc main_v16) = layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine ((W2_arr m ρ c 6).trans (Region0.final (V1 m ρ) c)).trans ?_
  have e0 : (V1 m ρ c main_arg0 : S100000x128.Idx → EReal) = m ((c : Thread nD τ).loc main_arg0) :=
    HostSide.keep0_x (W0 m ρ c)
  have e1 : (V1 m ρ c main_v13 : S100000x128.Idx → EReal)
      = nbrSum (m ((c : Thread nD τ).loc main_arg0)) (m ((c : Thread nD τ).loc main_arg1)) := HostSide.sums0 (W0 m ρ c)
  have e2 : (V1 m ρ c main_arg3 : S128x128.Idx → EReal) = m ((c : Thread nD τ).loc main_arg3) :=
    HostSide.keep0_W1a (W0 m ρ c)
  have e3 : (V1 m ρ c main_v14 : S1x128.Idx → EReal) = rowOf (m ((c : Thread nD τ).loc main_arg4)) :=
    HostSide.row0_a (W0 m ρ c)
  have e4 : (V1 m ρ c main_arg5 : S128x128.Idx → EReal) = m ((c : Thread nD τ).loc main_arg5) :=
    HostSide.keep0_W1b (W0 m ρ c)
  have e5 : (V1 m ρ c main_v15 : S1x128.Idx → EReal) = rowOf (m ((c : Thread nD τ).loc main_arg6)) :=
    HostSide.row0_b (W0 m ρ c)
  show mlp (M := 100000) (D := 128) (V1 m ρ c main_arg0 : S100000x128.Idx → EReal) (V1 m ρ c main_v13 : S100000x128.Idx → EReal)
      (V1 m ρ c main_arg3 : S128x128.Idx → EReal) (V1 m ρ c main_v14 : S1x128.Idx → EReal)
      (V1 m ρ c main_arg5 : S128x128.Idx → EReal) (V1 m ρ c main_v15 : S1x128.Idx → EReal) = _
  rw [e0, e1, e2, e3, e4, e5]
  rfl

/-- After the second region the result array holds the network of the arguments. -/
theorem after_region1 (c : Dev nD) :
    W4 m ρ c (Proc.devRef .tc main_v33) = net (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W4_arr m ρ c 6).trans (Region1.final (V3 m ρ) c)).trans ?_
  have hh := after_region0 m ρ c
  have a1 : W2 m ρ c (Proc.devRef .tc main_arg1) = m ((c : Thread nD τ).loc main_arg1) :=
    (W2_of_ne m ρ c main_arg1 (by decide)).trans (HostSide.keep0_e (W0 m ρ c))
  have a7 : W2 m ρ c (Proc.devRef .tc main_arg7) = m ((c : Thread nD τ).loc main_arg7) :=
    (W2_of_ne m ρ c main_arg7 (by decide)).trans (HostSide.keep0_W2a (W0 m ρ c))
  have a8 : W2 m ρ c (Proc.devRef .tc main_arg8) = m ((c : Thread nD τ).loc main_arg8) :=
    (W2_of_ne m ρ c main_arg8 (by decide)).trans (HostSide.keep0_b2a (W0 m ρ c))
  have a9 : W2 m ρ c (Proc.devRef .tc main_arg9) = m ((c : Thread nD τ).loc main_arg9) :=
    (W2_of_ne m ρ c main_arg9 (by decide)).trans (HostSide.keep0_W2b (W0 m ρ c))
  have a10 : W2 m ρ c (Proc.devRef .tc main_arg10) = m ((c : Thread nD τ).loc main_arg10) :=
    (W2_of_ne m ρ c main_arg10 (by decide)).trans (HostSide.keep0_b2b (W0 m ρ c))
  have e0 : (V3 m ρ c main_v16 : S100000x128.Idx → EReal) = layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
    (HostSide.keep1_h (W2 m ρ c)).trans hh
  have e1 : (V3 m ρ c main_v30 : S100000x128.Idx → EReal)
      = nbrSum (layer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg1)) :=
    (HostSide.sums1 (W2 m ρ c)).trans (by rw [hh, a1])
  have e2 : (V3 m ρ c main_arg7 : S128x128.Idx → EReal) = m ((c : Thread nD τ).loc main_arg7) :=
    (HostSide.keep1_W2a (W2 m ρ c)).trans a7
  have e3 : (V3 m ρ c main_v31 : S1x128.Idx → EReal) = rowOf (m ((c : Thread nD τ).loc main_arg8)) :=
    (HostSide.row1_a (W2 m ρ c)).trans (by rw [a8])
  have e4 : (V3 m ρ c main_arg9 : S128x128.Idx → EReal) = m ((c : Thread nD τ).loc main_arg9) :=
    (HostSide.keep1_W2b (W2 m ρ c)).trans a9
  have e5 : (V3 m ρ c main_v32 : S1x128.Idx → EReal) = rowOf (m ((c : Thread nD τ).loc main_arg10)) :=
    (HostSide.row1_b (W2 m ρ c)).trans (by rw [a10])
  show mlp (M := 100000) (D := 128) (V3 m ρ c main_v16 : S100000x128.Idx → EReal) (V3 m ρ c main_v30 : S100000x128.Idx → EReal)
      (V3 m ρ c main_arg7 : S128x128.Idx → EReal) (V3 m ρ c main_v31 : S1x128.Idx → EReal)
      (V3 m ρ c main_arg9 : S128x128.Idx → EReal) (V3 m ρ c main_v32 : S1x128.Idx → EReal) = _
  rw [e0, e1, e2, e3, e4, e5]
  rfl

/-- The run with its result named: the result array ends holding the network of the arguments, and each
    argument array what it held at launch (no host operation and no region writes one). -/
theorem run : θ_run defs (onTc (τ := τ) (main (F := Ideal))) ⟨m, fun _ => 0, ρ⟩ (fun r => ∀ c : Dev nD,
      r.2.mem ((c.tc : Thread nD τ).loc main_v33) = net (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v33 (by decide))).trans (after_region1 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩)
    (run_boundary m ρ)

end Cert.KernelIdeal.Whole

end
-- ==== Proof.RefValue.lean ====
/-
  The reference computes `Cert.Gin.net`. Each of its four dense stages — a product with a weight matrix, the bias
  broadcast through a one-row matrix down all the rows, the maximum with the zero array — is the dense layer
  `Cert.Dense.dense` entry by entry: at `(r, q)` the product is the sum over `k` of `y (r, k) · W (k, q)` and the
  broadcast bias is `b q`. The neighbour sums are the specification's by definition.
-/
import proofs.«144181_j84482006712591_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.Dense Cert.Gin

/-- The host's product at an entry: the sum over the 128 contracted coordinates. -/
theorem hostDot_apply (y : FVec Ideal S100000x128 .f32) (W : FVec Ideal S128x128 .f32)
    (r : Fin 100000) (q : Fin 128) :
    Host.dotGeneral (F := Ideal) dot_S100000x128_S128x128_S100000x128_1_0_0_1_n_n none y W (ix2 r q)
      = ∑ k : Fin 128, y (ix2 r k) * W (ix2 k q) := by
  simp only [Host.dotGeneral]
  rw [Ideal.dotGeneral_apply,
    ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : (dot_S100000x128_S128x128_S100000x128_1_0_0_1_n_n).lhsIdx (ix2 r q)
      ((contrEquiv1 dot_S100000x128_S128x128_S100000x128_1_0_0_1_n_n 128 rfl rfl).symm k) = ix2 r k :=
    funext fun a => Fin.ext (by
      match a with
      | ⟨0, _⟩ => exact lhs_main_v15_0 _ _
      | ⟨1, _⟩ => exact (lhs_main_v15_1 _ _).trans hk)
  have er : (dot_S100000x128_S128x128_S100000x128_1_0_0_1_n_n).rhsIdx (ix2 r q)
      ((contrEquiv1 dot_S100000x128_S128x128_S100000x128_1_0_0_1_n_n 128 rfl rfl).symm k) = ix2 k q :=
    funext fun a => Fin.ext (by
      match a with
      | ⟨0, _⟩ => exact (rhs_main_v15_0 _ _).trans hk
      | ⟨1, _⟩ => exact rhs_main_v15_1 _ _)
  rw [el, er]

/-- The bias after its two broadcasts, at `(r, q)`, is `b q`. -/
theorem bias_apply (b : FVec Ideal S128 .f32) (r : Fin 100000) (q : Fin 128) :
    val_main_v17 (F := Ideal) b (ix2 r q) = rowOf b (ix2 (0 : Fin 1) q) := by
  rw [val_main_v17_apply, val_main_v16_apply]
  exact congrArg b (funext fun a => by match a with | ⟨0, _⟩ => rfl)

/-- One dense stage of the reference is the dense layer. -/
theorem hostDense (y : FVec Ideal S100000x128 .f32) (W : FVec Ideal S128x128 .f32) (b : FVec Ideal S128 .f32) :
    maximumf (F := Ideal) (addf (F := Ideal) (Host.dotGeneral (F := Ideal) dot_S100000x128_S128x128_S100000x128_1_0_0_1_n_n none y W)
      (val_main_v17 (F := Ideal) b)) (val_main_call0_v0 (F := Ideal)) = dense (M := 100000) (K := 128) (N := 128) y W (rowOf b) := by
  funext j
  obtain ⟨r, q, rfl⟩ : ∃ (r : Fin 100000) (q : Fin 128), j = ix2 r q := ⟨j 0, j 1, eq_ix2 j⟩
  rw [dense_apply]
  show max (Host.dotGeneral (F := Ideal) dot_S100000x128_S128x128_S100000x128_1_0_0_1_n_n none y W (ix2 r q)
      + val_main_v17 (F := Ideal) b (ix2 r q)) (val_main_call0_v0 (F := Ideal) (ix2 r q)) = _
  rw [hostDot_apply, bias_apply, val_main_call0_v0_apply, val_main_call0_cst_apply]
  rfl

/-- The reference's result, as a function of its argument arrays, is the network. -/
theorem result_eq (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) :
    val_main_v49 (F := Ideal) x0 x1 x3 x4 x5 x6 x7 x8 x9 x10 = net x0 x1 x3 x4 x5 x6 x7 x8 x9 x10 := by
  unfold net layer mlp
  rw [← hostDense, ← hostDense, ← hostDense, ← hostDense]
  rfl

end Cert.ReferenceIdeal.RefValue

end
-- ==== Proof.lean ====
/-
  The two programs compute one function over the extended reals: two message-passing layers over a graph of
  100000 nodes with 128 features each and 1600000 edges. A layer adds to each node's features the sum of its
  in-neighbours' features and applies two dense layers with rectifiers (`Cert.Gin.net`, Proof/Spec.lean).

  The kernel takes the neighbour sums on the host and runs the two dense layers in a pipelined region, twenty
  blocks of 5000 nodes, rounding the operands of each product to bf16 — the identity over the extended reals. A
  block's result is the layer of the block (Proof/Block.lean); since the layer acts row by row, the blocks are the
  rows of the layer of the whole arrays (Proof/Region0.lean, Proof/Region1.lean), and composing the four stretches
  of the program gives the network (Proof/KernelRun.lean). The reference applies the same host operations for the
  neighbour sums and whole-array products for the dense layers (Proof/RefValue.lean). No step needs the inputs to be
  finite: the two sides are the same sums and maxima in the same arrangement.

  The three frames: the kernel's two are the generated ones; the reference's is its run with the result dropped.
  The idealization rewrote nothing, so there is nothing to preserve.
-/
import proofs.«144181_j84482006712591_1_alg».proof.Defs
import proofs.«144181_j84482006712591_1_alg».proof.Proof.Gen.Kernel
import proofs.«144181_j84482006712591_1_alg».proof.Proof.Gen.Kernel.Skeleton
import proofs.«144181_j84482006712591_1_alg».proof.Proof.Gen.Kernel.Launch
import proofs.«144181_j84482006712591_1_alg».proof.Proof.Gen.Kernel.Points
import proofs.«144181_j84482006712591_1_alg».proof.Proof.Gen.Kernel.Frame
import proofs.«144181_j84482006712591_1_alg».proof.Proof.Gen.KernelIdeal
import proofs.«144181_j84482006712591_1_alg».proof.Proof.Gen.KernelIdeal.Skeleton
import proofs.«144181_j84482006712591_1_alg».proof.Proof.Gen.KernelIdeal.Launch
import proofs.«144181_j84482006712591_1_alg».proof.Proof.Gen.KernelIdeal.Points
import proofs.«144181_j84482006712591_1_alg».proof.Proof.Gen.KernelIdeal.Frame
import proofs.«144181_j84482006712591_1_alg».proof.Proof.Gen.ReferenceIdeal
import proofs.«144181_j84482006712591_1_alg».proof.Proof.Gen.Pre_finite_inputs
import proofs.«144181_j84482006712591_1_alg».proof.Proof.Gen.ReferenceIdeal.Run
import proofs.«144181_j84482006712591_1_alg».proof.Proof.Gen.ReferenceIdeal.Read
import proofs.«144181_j84482006712591_1_alg».proof.Proof.KernelRun
import proofs.«144181_j84482006712591_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the network of the argument arrays: the kernel's by
    `Cert.KernelIdeal.Whole.run`, the reference's by its run and `Cert.ReferenceIdeal.RefValue.result_eq`, the
    two memories agreeing on the arguments. -/
theorem algebraic : Cert.algebraic_KernelIdeal_ReferenceIdeal := by
  intro m ρ m' ρ' _ hagree
  refine ⟨fun c => Cert.Gin.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.result_eq]
  obtain ⟨h0, h1, -, h3, h4, h5, h6, h7, h8, h9, h10⟩ := hagree c
  rw [h0, h1, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
